-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x16384x1024 : Shape := ⟨3, ![6, 16384, 1024]⟩
abbrev S6x1x1 : Shape := ⟨3, ![6, 1, 1]⟩
abbrev S_ : Shape := ⟨0, ![]⟩

class Facts : Prop where
  bcast_S_S6x16384x1024 : S_.BroadcastsInDim S6x16384x1024 (![] : Fin 0 → Fin S6x16384x1024.rank)
  reducesTo_S6x16384x1024_S_d0_1_2 : S6x16384x1024.ReducesTo [0, 1, 2] S_
  h_S_ : 0 < S_.numel
  bcast_S_S6x1x1 : S_.BroadcastsInDim S6x1x1 (![] : Fin 0 → Fin S6x1x1.rank)
  reducesTo_S6x1x1_S_d0_1_2 : S6x1x1.ReducesTo [0, 1, 2] S_

variable [Facts]

def fn {F : FTy → Type} [FloatOps F] (main_arg0 : FVec F S6x16384x1024 .f32) (main_arg1 : FVec F S6x1x1 .f32) : IVec S_ 1 :=
  let main_v0 : FVec F S6x16384x1024 .f32 := Host.absf main_arg0
  let main_cst : FVec F S_ .f32 := constant S_ .f32 0x7F800000#32
  let main_v1 : FVec F S6x16384x1024 .f32 := broadcastInDim S6x16384x1024 ![] bcast_S_S6x16384x1024 main_cst
  let main_v2 : IVec S6x16384x1024 1 := cmpf .olt main_v0 main_v1
  let main_c : IVec S_ 1 := constantI S_ 1 1#1
  let main_v3 : IVec S_ 1 := (fun x v => Host.reduce IntOp.andi x v reducesTo_S6x16384x1024_S_d0_1_2 h_S_) main_v2 main_c
  let main_v4 : FVec F S6x1x1 .f32 := Host.absf main_arg1
  let main_cst_0 : FVec F S_ .f32 := constant S_ .f32 0x7F800000#32
  let main_v5 : FVec F S6x1x1 .f32 := broadcastInDim S6x1x1 ![] bcast_S_S6x1x1 main_cst_0
  let main_v6 : IVec S6x1x1 1 := cmpf .olt main_v4 main_v5
  let main_c_1 : IVec S_ 1 := constantI S_ 1 1#1
  let main_v7 : IVec S_ 1 := (fun x v => Host.reduce IntOp.andi x v reducesTo_S6x1x1_S_d0_1_2 h_S_) main_v6 main_c_1
  let main_v8 : IVec S_ 1 := andi main_v3 main_v7
  main_v8
-- ==== Kernel.lean ====
abbrev S6x16384x1024 : Shape := ⟨3, ![6, 16384, 1024]⟩
abbrev S6x1x1 : Shape := ⟨3, ![6, 1, 1]⟩
abbrev S16384x1024 : Shape := ⟨2, ![16384, 1024]⟩
abbrev S6x512x1024 : Shape := ⟨3, ![6, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S6x16384x1024, .f32⟩
  | .hbm, ⟨1, _⟩ => ⟨S6x1x1, .f32⟩
  | .hbm, ⟨2, _⟩ => ⟨S16384x1024, .f32⟩
  | .local _ .vmem, ⟨0, _⟩ => ⟨S6x512x1024, .f32⟩
  | .local _ .vmem, ⟨1, _⟩ => ⟨S6x512x1024, .f32⟩
  | .local _ .vmem, ⟨2, _⟩ => ⟨S6x1x1, .f32⟩
  | .local _ .vmem, ⟨3, _⟩ => ⟨S512x1024, .f32⟩
  | .local _ .vmem, ⟨4, _⟩ => ⟨S512x1024, .f32⟩
  | _, _ => ⟨S6x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S6x512x1024_S6x512x1024_0_0_0 : ∀ a, (![0, 0, 0] : Fin 3 → Nat) a + S6x512x1024.size a ≤ S6x512x1024.size a
  h_S6x512x1024 : 0 < S6x512x1024.numel
  inb_S6x1x1_S6x1x1_0_0_0 : ∀ a, (![0, 0, 0] : Fin 3 → Nat) a + S6x1x1.size a ≤ S6x1x1.size a
  h_S6x1x1 : 0 < S6x1x1.numel
  broadcasts_S6x1x1_S6x512x1024 : S6x1x1.Broadcasts S6x512x1024
  reduces_S6x512x1024_S512x1024 : S6x512x1024.Reduces [0] S512x1024
  inb_S512x1024_S512x1024_0_0 : ∀ a, (![0, 0] : Fin 2 → Nat) a + S512x1024.size a ≤ S512x1024.size a
  h_S512x1024 : 0 < S512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x512x1024.size a ≤ S6x16384x1024.size a
  hwx0_0 : ∀ i : grid0.Coords, EltTy.bits .f32 = 32 ∨ (Rect.block (s := S6x16384x1024) S6x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x1x1.size a ≤ S6x1x1.size a
  hwx0_1 : ∀ i : grid0.Coords, EltTy.bits .f32 = 32 ∨ (Rect.block (s := S6x1x1) S6x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

abbrev win0_0 : Pipeline.Window sig grid0 :=
  Pipeline.Window.ofSpec (Memref.whole main_arg0) S6x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x16384x1024 : Shape := ⟨3, ![6, 16384, 1024]⟩
abbrev S6x1x1 : Shape := ⟨3, ![6, 1, 1]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S6x16384x1024, .f32⟩
  | .hbm, ⟨1, _⟩ => ⟨S6x1x1, .f32⟩
  | .hbm, ⟨2, _⟩ => ⟨S6x16384x1024, .f32⟩
  | .hbm, ⟨3, _⟩ => ⟨S6x16384x1024, .f32⟩
  | .hbm, ⟨4, _⟩ => ⟨S_, .f32⟩
  | .hbm, ⟨5, _⟩ => ⟨S16384x1024, .f32⟩
  | _, _ => ⟨S6x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S6x1x1_S6x16384x1024_0_1_2 : S6x1x1.BroadcastsInDim S6x16384x1024 (![0, 1, 2] : Fin 3 → Fin S6x16384x1024.rank)
  reducesTo_S6x16384x1024_S16384x1024_d0 : S6x16384x1024.ReducesTo [0] S16384x1024
  h_S_ : 0 < S_.numel

variable [Facts₀]

class Facts : Prop extends Facts₀ where

variable [Facts]
-- ==== Proof.WeightedStackSum.lean ====
/-
  The weighted sum of a stack of six matrices.

  From a stack `x` of six 16384 × 1024 matrices of extended reals and six weights `w` (held as a 6 × 1 × 1 array), the
  matrix whose entry at row `r`, column `c` is

      Σ_{i < 6}  x[i, r, c] · w[i, 0, 0].

  Both programs compute this matrix: the kernel 512 rows at a time, the reference in one pass over the stack. The factors
  of each product stand in the same order on both sides and the six products are added over the same axis, so no law of
  arithmetic is needed to join them beyond one: the reference's sum is started from the float word zero, which denotes
  the real number 0 and therefore disappears (`zero_word_add`). In particular nothing here needs the entries to be finite.
-/
import Idealize.ShloMosaic.PureOps.Ideal
import Idealize.ShloMosaic.PureOps.Ideal.Laws
import Idealize.ShloMosaic.Lib.ValueIdx

noncomputable section

open scoped BigOperators

namespace Cert.WeightedStackSum

open Idealize.ShloMosaic Idealize.ShloMosaic.ValueIdx

/-- Entry (r, c) of the weighted sum: the six matrices' entries at (r, c), each times its matrix's weight, added. -/
def entry (x : FVec Ideal ⟨3, ![6, 16384, 1024]⟩ .f32) (w : FVec Ideal ⟨3, ![6, 1, 1]⟩ .f32) (r : Fin 16384) (c : Fin 1024) : EReal :=
  ∑ i : Fin 6, x (ix3 i r c) * w (ix3 i 0 0)

/-- The weighted sum as a whole 16384 × 1024 matrix. -/
def total (x : FVec Ideal ⟨3, ![6, 16384, 1024]⟩ .f32) (w : FVec Ideal ⟨3, ![6, 1, 1]⟩ .f32) : FVec Ideal ⟨2, ![16384, 1024]⟩ .f32 :=
  fun j => entry x w (j 0) (j 1)

/-- The matrix read at row `r`, column `c`. -/
theorem total_apply (x : FVec Ideal ⟨3, ![6, 16384, 1024]⟩ .f32) (w : FVec Ideal ⟨3, ![6, 1, 1]⟩ .f32) (r : Fin 16384) (c : Fin 1024) :
    total x w (ix2 r c) = entry x w r c := rfl

/-- A sum started from the float word zero is the sum itself: the word denotes the real number 0. -/
theorem zero_word_add (s : EReal) : Ideal.ofBits .f32 0x00000000#32 + s = s := by
  rw [Ideal.ofBits_zero_f32, zero_add]

end Cert.WeightedStackSum

end
-- ==== Proof.ReferenceTotal.lean ====
/-
  The reference computes the weighted sum of the stack.

  The reference spreads the six weights over the whole stack (entry (i, r, c) of the spread array is weight i), multiplies
  the stack by it entry by entry, and adds the six products along the stack axis, starting from zero. Read at row `r`,
  column `c` that is  0 + Σ_{i<6} x[i, r, c] · w[i, 0, 0],  the weighted sum's entry.
-/
import proofs.«167947_j39281770889289_1_alg».proof.Proof.Gen.ReferenceIdeal.Read
import proofs.«167947_j39281770889289_1_alg».proof.Proof.WeightedStackSum

noncomputable section

open scoped BigOperators

namespace Cert.ReferenceIdeal.Total

open Cert.ReferenceIdeal Cert.ReferenceIdeal.Read Idealize.ShloMosaic Idealize.ShloMosaic.ValueIdx

/-- The stack entry the reduction adds at step `i` for the result's entry (r, c) is entry (i, r, c). -/
theorem summand_index (r : Fin 16384) (c : Fin 1024) (i : Fin 6) : idx_main_v2 (ix2 r c) i = ix3 i r c :=
  funext fun a => Fin.ext (by match a with | ⟨0, _⟩ => rfl | ⟨1, _⟩ => rfl | ⟨2, _⟩ => rfl)

/-- The spread weights at entry (i, r, c) are weight `i`. -/
theorem weight_index (r : Fin 16384) (c : Fin 1024) (i : Fin 6) : idx_main_v0 (ix3 i r c) = ix3 i 0 0 :=
  funext fun a => Fin.ext (by match a with | ⟨0, _⟩ => rfl | ⟨1, _⟩ => rfl | ⟨2, _⟩ => rfl)

/-- The reference's result, as a function of its two arguments, is the weighted sum of the stack. -/
theorem result_eq (x : (⟨S6x16384x1024, .f32⟩ : BufTy).Contents (Elt Ideal)) (w : (⟨S6x1x1, .f32⟩ : BufTy).Contents (Elt Ideal)) :
    val_main_v2 (F := Ideal) x w = Cert.WeightedStackSum.total x w := by
  funext j
  obtain ⟨r, c, rfl⟩ : ∃ (r : Fin 16384) (c : Fin 1024), j = ix2 r c := ⟨j 0, j 1, eq_ix2 j⟩
  rw [val_main_v2_apply, val_main_cst_apply, Cert.WeightedStackSum.total_apply]
  simp only [val_main_v1_apply, val_main_v0_apply, summand_index, weight_index, Ideal.ofBits_def, Ideal.mulf_def]
  exact Cert.WeightedStackSum.zero_word_add _

end Cert.ReferenceIdeal.Total

end
-- ==== Proof.BlockEntry.lean ====
/-
  One block of the kernel's result, entry by entry.

  At a grid point the kernel holds a 6 × 512 × 1024 block `x` of the stack (512 rows of each of the six matrices) and the six
  weights `w`. It spreads the weights over the block (entry (i, p, q) of the spread array is weight i), multiplies the block
  by it entry by entry, and adds the six products along the stack axis. The sum's accumulator starts at the neutral word of
  addition, so at row `p`, column `q` of the block the stored value is exactly

      Σ_{i < 6}  x[i, p, q] · w[i, 0, 0].
-/
import proofs.«167947_j39281770889289_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The weights spread over a 6 × 512 × 1024 block: at (i, p, q) the spread array holds weight `i`. -/
theorem spread_apply (w : Vec Ideal S6x1x1 .f32) (h : S6x1x1.Broadcasts S6x512x1024) (i : Fin 6) (p : Fin 512) (q : Fin 1024) :
    broadcastTo S6x512x1024 w h (ix3 i p q) = w (ix3 i 0 0) :=
  broadcastTo_apply w h (ix3 i p q) (ix3 i 0 0) (fun a => by
    match a with
    | ⟨0, _⟩ => show i.val = if (6 : Nat) = 1 then 0 else i.val; rw [if_neg (by decide)]
    | ⟨1, _⟩ => show 0 = if (1 : Nat) = 1 then 0 else p.val; rw [if_pos rfl]
    | ⟨2, _⟩ => show 0 = if (1 : Nat) = 1 then 0 else q.val; rw [if_pos rfl])

/-- Putting the stack coordinate `i` back in front of a block's (p, q) gives the block index (i, p, q). -/
theorem lift_index (h : S6x512x1024.Reduces [0] S512x1024) (p : Fin 512) (q : Fin 1024) (i : Fin 6) :
    h.lift (ix2 p q) i = ix3 i p q :=
  funext fun a => Fin.ext (by match a with | ⟨0, _⟩ => rfl | ⟨1, _⟩ => rfl | ⟨2, _⟩ => rfl)

/-- What the kernel stores at row `p`, column `q` of its output block: the six block entries at (·, p, q), each times its
    matrix's weight, added. -/
theorem stored_entry (x : Vec Ideal S6x512x1024 .f32) (w : Vec Ideal S6x1x1 .f32) (p : Fin 512) (q : Fin 1024) :
    k0_pay1 (F := Ideal) x w (ix2 p q) = ∑ i : Fin 6, x (ix3 i p q) * w (ix3 i 0 0) := by
  unfold k0_pay1
  refine (Ideal.multiReduction_add_single (mulf x (broadcastTo S6x512x1024 w broadcasts_S6x1x1_S6x512x1024))
    0x00000000#32 reduces_S6x512x1024_S512x1024 (.inl rfl) rfl (ix2 p q)).trans ?_
  show (∑ i : Fin 6, (mulf (F := Ideal) (φ := .f32) x (broadcastTo S6x512x1024 w broadcasts_S6x1x1_S6x512x1024)
      (reduces_S6x512x1024_S512x1024.lift (ix2 p q) i) : EReal)) = ∑ i : Fin 6, x (ix3 i p q) * w (ix3 i 0 0)
  refine Finset.sum_congr rfl fun i _ => ?_
  rw [lift_index, mulf_apply, spread_apply]

end Cert.KernelIdeal.Block

end
-- ==== Proof.KernelTotal.lean ====
/-
  The kernel's result array is the weighted sum of the stack.

  The grid has 32 points. Point `t` is handed rows 512·t … 512·t + 511 of each of the six matrices of the stack, and all six
  weights, and writes rows 512·t … 512·t + 511 of the result. So row `p` of the block a point reads is row 512·t + p of the
  stack, and what it stores at (p, q) — the six block entries at (·, p, q), each times its weight, added — is the weighted
  sum's entry at (512·t + p, q). Row `r` of the result lies in the block of point r / 512, so the 32 blocks cover the result
  and the whole array ends as the weighted sum.
-/
import proofs.«167947_j39281770889289_1_alg».proof.Proof.Gen.KernelIdeal.Value
import proofs.«167947_j39281770889289_1_alg».proof.Proof.BlockEntry
import proofs.«167947_j39281770889289_1_alg».proof.Proof.WeightedStackSum

noncomputable section

open scoped BigOperators

namespace Cert.KernelIdeal.Total

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.WeightedStackSum (total entry total_apply)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- Which blocks a grid point works on, over the 32 points: row block `t` of the whole stack, the one block of weights, row
    block `t` of the result. -/
theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0)

/-- If a block `x` holds, in its row `p`, row `r` of the stack `X`, and `w` holds the weights `W`, then what the kernel stores
    at (p, q) is the weighted sum of `X` by `W` at (r, q). -/
theorem stored_is_total (X : FVec Ideal ⟨3, ![6, 16384, 1024]⟩ .f32) (W : FVec Ideal ⟨3, ![6, 1, 1]⟩ .f32)
    (x : Vec Ideal S6x512x1024 .f32) (w : Vec Ideal S6x1x1 .f32) (r : Fin 16384) (p : Fin 512) (q : Fin 1024)
    (hx : ∀ i : Fin 6, x (ix3 i p q) = X (ix3 i r q)) (hw : ∀ i : Fin 6, w (ix3 i 0 0) = W (ix3 i 0 0)) :
    k0_pay1 (F := Ideal) x w (ix2 p q) = total X W (ix2 r q) := by
  rw [Cert.KernelIdeal.Block.stored_entry, total_apply]
  unfold entry
  exact Finset.sum_congr rfl fun i _ => by rw [hx i, hw i]

/-- What point `t` writes back is block `t` of the weighted sum of the argument arrays. -/
theorem flushed_eq (c : Dev nD) (t : Fin cfg0.N) :
    (dats m 0 c).flushed 2 t
      = ((cfg0.win 2).blk t).view.read (Elt Ideal) (total (V m c main_arg0) (V m c main_arg1)) := by
  rw [flushed2]
  unfold out0_2
  rw [View.canon_unit_zero zero_offsets2]
  simp only [View.ld_unit_zero (S := S6x512x1024) zero_offsets3, View.ld_unit_zero (S := S6x1x1) zero_offsets3]
  have hN : cfg0.N = 32 := N_0
  have ht : t.val < 32 := lt_of_lt_of_eq t.isLt hN
  obtain ⟨a0, a1, a2, b0, b1, b2, o0, o1⟩ := block_indices t
  refine funext fun (y : S512x1024.Idx) => ?_
  obtain ⟨p, q, rfl⟩ : ∃ (p : Fin 512) (q : Fin 1024), y = ix2 p q := ⟨y 0, y 1, eq_ix2 (n0 := 512) (n1 := 1024) y⟩
  have hp : p.val < 512 := p.isLt
  have hq : q.val < 1024 := q.isLt
  show k0_pay1 (F := Ideal) (iblk m c 0 t) (iblk m c 1 t) (ix2 p q)
    = total (V m c main_arg0) (V m c main_arg1) (((cfg0.win 2).blk t).view.emb (ix2 p q))
  have hrow : ((cfg0.win 2).blk t).view.emb (ix2 p q) = ix2 (⟨512 * t.val + p.val, by omega⟩ : Fin 16384) q := by
    funext a; apply Fin.ext
    match a with
    | ⟨0, _⟩ => show win0_2.index t (0 : Fin 2) * 512 + 1 * p.val = 512 * t.val + p.val; omega
    | ⟨1, _⟩ => show win0_2.index t (1 : Fin 2) * 1024 + 1 * q.val = q.val; omega
  rw [hrow]
  refine stored_is_total (V m c main_arg0) (V m c main_arg1) (iblk m c 0 t) (iblk m c 1 t)
    (⟨512 * t.val + p.val, by omega⟩ : Fin 16384) p q (fun i => ?_) (fun i => ?_)
  · have hi : i.val < 6 := i.isLt
    show V m c main_arg0 (((cfg0.win 0).blk t).view.emb (ix3 i p q)) = V m c main_arg0 (ix3 i (⟨512 * t.val + p.val, by omega⟩ : Fin 16384) q)
    refine congrArg _ (funext fun a => Fin.ext ?_)
    match a with
    | ⟨0, _⟩ => show win0_0.index t (0 : Fin 3) * 6 + 1 * i.val = i.val; omega
    | ⟨1, _⟩ => show win0_0.index t (1 : Fin 3) * 512 + 1 * p.val = 512 * t.val + p.val; omega
    | ⟨2, _⟩ => show win0_0.index t (2 : Fin 3) * 1024 + 1 * q.val = q.val; omega
  · have hi : i.val < 6 := i.isLt
    show V m c main_arg1 (((cfg0.win 1).blk t).view.emb (ix3 i 0 0)) = V m c main_arg1 (ix3 i 0 0)
    refine congrArg _ (funext fun a => Fin.ext ?_)
    match a with
    | ⟨0, _⟩ => show win0_1.index t (0 : Fin 3) * 6 + 1 * i.val = i.val; omega
    | ⟨1, _⟩ => show win0_1.index t (1 : Fin 3) * 1 + 1 * 0 = 0; omega
    | ⟨2, _⟩ => show win0_1.index t (2 : Fin 3) * 1 + 1 * 0 = 0; omega

/-- An entry of the result lies in point `t`'s block iff each of its coordinates lies in the block's range on that axis. -/
theorem mem_blk (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry of the result is written: row `r` lies in the block of point r / 512. -/
theorem covered (i : S16384x1024.Idx) :
    ∃ t : Fin cfg0.N, (cfg0.win 2).flush t = true ∧ i ∈ ((cfg0.win 2).blk t).view.set := by
  have hN : cfg0.N = 32 := N_0
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, o0, o1⟩ := block_indices t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the run is the weighted sum of the argument arrays. -/
theorem final (c : Dev nD) :
    (dats m 0 c).arrAt 2 cfg0.N = total (m ((c : Thread nD τ).loc main_arg0)) (m ((c : Thread nD τ).loc main_arg1)) :=
  (dats m 0 c).arrAt_eq_of_cover 2 (total (V m c main_arg0) (V m c main_arg1)) (fun t _ => flushed_eq m c t) covered

/-- The kernel's run: every weakly fair execution ends with the result array at the weighted sum of the argument arrays, the
    arguments unchanged. -/
theorem run : θ_run defs (onTc (τ := τ) (main (F := Ideal))) ⟨m, fun _ => 0, ρ⟩ fun r => ∀ c : Dev nD,
      r.2.mem ((c : Thread nD τ).loc main_v0) = total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Total

end
-- ==== Proof.lean ====
/- The weighted sum of a stack of six matrices, computed two ways.

   Both programs take a stack `x` of six 16384 × 1024 matrices and six weights `w` (a 6 × 1 × 1 array) and return the matrix
   whose entry at (r, c) is  Σ_{i<6} x[i, r, c] · w[i, 0, 0].  The kernel walks over 32 blocks of 512 rows: at each it
   multiplies the block of the stack by the weights spread over it and adds the six products along the stack axis; the 32
   blocks cover the result (Proof/BlockEntry.lean, Proof/KernelTotal.lean). The reference spreads the weights over the whole
   stack, multiplies, and adds along the stack axis starting from zero (Proof/ReferenceTotal.lean). Read as extended reals
   the two results are one function of the arguments, Proof/WeightedStackSum.lean's `total`: the products have their
   factors in the same order and are added over the same axis, and the reference's starting zero disappears. No entry needs
   to be finite for that, so the precondition is never opened. The idealized kernel is the kernel's own text read over the
   extended reals (no operation was rewritten), so there is nothing to preserve. -/
import proofs.«167947_j39281770889289_1_alg».proof.Defs
import proofs.«167947_j39281770889289_1_alg».proof.Proof.Gen.Kernel
import proofs.«167947_j39281770889289_1_alg».proof.Proof.Gen.Kernel.Skeleton
import proofs.«167947_j39281770889289_1_alg».proof.Proof.Gen.Kernel.Launch
import proofs.«167947_j39281770889289_1_alg».proof.Proof.Gen.Kernel.Points
import proofs.«167947_j39281770889289_1_alg».proof.Proof.Gen.Kernel.Frame
import proofs.«167947_j39281770889289_1_alg».proof.Proof.Gen.KernelIdeal
import proofs.«167947_j39281770889289_1_alg».proof.Proof.Gen.KernelIdeal.Skeleton
import proofs.«167947_j39281770889289_1_alg».proof.Proof.Gen.KernelIdeal.Launch
import proofs.«167947_j39281770889289_1_alg».proof.Proof.Gen.KernelIdeal.Points
import proofs.«167947_j39281770889289_1_alg».proof.Proof.Gen.KernelIdeal.Frame
import proofs.«167947_j39281770889289_1_alg».proof.Proof.Gen.ReferenceIdeal
import proofs.«167947_j39281770889289_1_alg».proof.Proof.Gen.Pre_finite_inputs
import proofs.«167947_j39281770889289_1_alg».proof.Proof.Gen.KernelIdeal.Value
import proofs.«167947_j39281770889289_1_alg».proof.Proof.Gen.ReferenceIdeal.Run
import proofs.«167947_j39281770889289_1_alg».proof.Proof.Gen.ReferenceIdeal.Read
import proofs.«167947_j39281770889289_1_alg».proof.Proof.WeightedStackSum
import proofs.«167947_j39281770889289_1_alg».proof.Proof.ReferenceTotal
import proofs.«167947_j39281770889289_1_alg».proof.Proof.KernelTotal
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the stack and the weights, the kernel's result array ends as the weighted sum of its
    arguments and the reference's as the weighted sum of its own; the arguments being equal, so are the results. -/
theorem algebraic : Cert.algebraic_KernelIdeal_ReferenceIdeal := by
  intro m ρ m' ρ' _ hagree
  refine ⟨fun c => Cert.WeightedStackSum.total (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Total.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
